-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S3200000x24 : Shape := ⟨2, ![3200000, 24]⟩
abbrev S3200000 : Shape := ⟨1, ![3200000]⟩
abbrev S100000x1 : Shape := ⟨2, ![100000, 1]⟩
abbrev S512x536 : Shape := ⟨2, ![512, 536]⟩
abbrev S512 : Shape := ⟨1, ![512]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S3200000x24 : S_.BroadcastsInDim S3200000x24 (![] : Fin 0 → Fin S3200000x24.rank)
  reducesTo_S3200000x24_S_d0_1 : S3200000x24.ReducesTo [0, 1] S_
  bcast_S_S100000x1 : S_.BroadcastsInDim S100000x1 (![] : Fin 0 → Fin S100000x1.rank)
  reducesTo_S100000x1_S_d0_1 : S100000x1.ReducesTo [0, 1] S_
  bcast_S_S512x536 : S_.BroadcastsInDim S512x536 (![] : Fin 0 → Fin S512x536.rank)
  reducesTo_S512x536_S_d0_1 : S512x536.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg5 : FVec F S512 .f32) (main_arg6 : FVec F S512 .f32) (main_arg7 : FVec F S512 .f32) (main_v13 : IVec S_ 1) (main_v16 : IVec S512x536 1) : IVec S_ 1 :=
  let main_c_5 : IVec S_ 1 := constantI S_ 1 1#1
  let main_v17 : IVec S_ 1 := (fun x v => Host.reduce IntOp.andi x v reducesTo_S512x536_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S100000x512 .f32) (main_arg1 : FVec F S3200000x24 .f32) (main_arg2 : IVec S3200000 32) (main_arg3 : FVec F S100000x1 .f32) (main_arg4 : FVec F S512x536 .f32) (main_arg5 : FVec F S512 .f32) (main_arg6 : FVec F S512 .f32) (main_arg7 : FVec F S512 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S3200000x24 .f32 := Host.absf main_arg1
  let main_cst_0 : FVec F S_ .f32 := constant S_ .f32 0x7F800000#32
  let main_v5 : FVec F S3200000x24 .f32 := broadcastInDim S3200000x24 ![] bcast_S_S3200000x24 main_cst_0
  let main_v6 : IVec S3200000x24 1 := cmpf .olt main_v4 main_v5
  let main_c_1 : IVec S_ 1 := constantI S_ 1 1#1
  let main_v7 : IVec S_ 1 := (fun x v => Host.reduce IntOp.andi x v reducesTo_S3200000x24_S_d0_1 h_S_) main_v6 main_c_1
  let main_v8 : IVec S_ 1 := andi main_v3 main_v7
  let main_v9 : FVec F S100000x1 .f32 := Host.absf main_arg3
  let main_cst_2 : FVec F S_ .f32 := constant S_ .f32 0x7F800000#32
  let main_v10 : FVec F S100000x1 .f32 := broadcastInDim S100000x1 ![] bcast_S_S100000x1 main_cst_2
  let main_v11 : IVec S100000x1 1 := cmpf .olt main_v9 main_v10
  let main_c_3 : IVec S_ 1 := constantI S_ 1 1#1
  let main_v12 : IVec S_ 1 := (fun x v => Host.reduce IntOp.andi x v reducesTo_S100000x1_S_d0_1 h_S_) main_v11 main_c_3
  let main_v13 : IVec S_ 1 := andi main_v8 main_v12
  let main_v14 : FVec F S512x536 .f32 := Host.absf main_arg4
  let main_cst_4 : FVec F S_ .f32 := constant S_ .f32 0x7F800000#32
  let main_v15 : FVec F S512x536 .f32 := broadcastInDim S512x536 ![] bcast_S_S512x536 main_cst_4
  let main_v16 : IVec S512x536 1 := cmpf .olt main_v14 main_v15
  fn_part1 (F := F) main_arg5 main_arg6 main_arg7 main_v13 main_v16
-- ==== Kernel.lean ====
abbrev S100000x512 : Shape := ⟨2, ![100000, 512]⟩
abbrev S3200000x24 : Shape := ⟨2, ![3200000, 24]⟩
abbrev S3200000 : Shape := ⟨1, ![3200000]⟩
abbrev S100000x1 : Shape := ⟨2, ![100000, 1]⟩
abbrev S512x536 : Shape := ⟨2, ![512, 536]⟩
abbrev S512 : Shape := ⟨1, ![512]⟩
abbrev S_ : Shape := ⟨0, ![]⟩
abbrev S100000x24 : Shape := ⟨2, ![100000, 24]⟩
abbrev S3200000x1 : Shape := ⟨2, ![3200000, 1]⟩
abbrev S512x512 : Shape := ⟨2, ![512, 512]⟩
abbrev S512x24 : Shape := ⟨2, ![512, 24]⟩
abbrev S24x512 : Shape := ⟨2, ![24, 512]⟩
abbrev S2000x512 : Shape := ⟨2, ![2000, 512]⟩
abbrev S2000x24 : Shape := ⟨2, ![2000, 24]⟩
abbrev S2000x1 : Shape := ⟨2, ![2000, 1]⟩
abbrev S1x512 : Shape := ⟨2, ![1, 512]⟩
abbrev S2000 : Shape := ⟨1, ![2000]⟩

abbrev nBuf : Space → Nat
  | .hbm => 19
  | .vmem => 13
  | .smem => 0
  | _ => 0

abbrev bufTy : (tb : Table) → Fin (tcTables nBuf tb) → BufTy
  | .hbm, ⟨0, _⟩ => ⟨S100000x512, .f32⟩
  | .hbm, ⟨1, _⟩ => ⟨S3200000x24, .f32⟩
  | .hbm, ⟨2, _⟩ => ⟨S3200000, .i32⟩
  | .hbm, ⟨3, _⟩ => ⟨S100000x1, .f32⟩
  | .hbm, ⟨4, _⟩ => ⟨S512x536, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S_, .f32⟩
  | .hbm, ⟨9, _⟩ => ⟨S100000x24, .f32⟩
  | .hbm, ⟨10, _⟩ => ⟨S3200000x1, .i32⟩
  | .hbm, ⟨11, _⟩ => ⟨S100000x24, .f32⟩
  | .hbm, ⟨12, _⟩ => ⟨S512x512, .f32⟩
  | .hbm, ⟨13, _⟩ => ⟨S512x512, .f32⟩
  | .hbm, ⟨14, _⟩ => ⟨S512x512, .bf16⟩
  | .hbm, ⟨15, _⟩ => ⟨S512x24, .f32⟩
  | .hbm, ⟨16, _⟩ => ⟨S24x512, .f32⟩
  | .hbm, ⟨17, _⟩ => ⟨S24x512, .bf16⟩
  | .hbm, ⟨18, _⟩ => ⟨S100000x512, .f32⟩
  | .local _ .vmem, ⟨0, _⟩ => ⟨S2000x512, .f32⟩
  | .local _ .vmem, ⟨1, _⟩ => ⟨S2000x512, .f32⟩
  | .local _ .vmem, ⟨2, _⟩ => ⟨S2000x24, .f32⟩
  | .local _ .vmem, ⟨3, _⟩ => ⟨S2000x24, .f32⟩
  | .local _ .vmem, ⟨4, _⟩ => ⟨S2000x1, .f32⟩
  | .local _ .vmem, ⟨5, _⟩ => ⟨S2000x1, .f32⟩
  | .local _ .vmem, ⟨6, _⟩ => ⟨S512x512, .bf16⟩
  | .local _ .vmem, ⟨7, _⟩ => ⟨S24x512, .bf16⟩
  | .local _ .vmem, ⟨8, _⟩ => ⟨S512, .f32⟩
  | .local _ .vmem, ⟨9, _⟩ => ⟨S512, .f32⟩
  | .local _ .vmem, ⟨10, _⟩ => ⟨S512, .f32⟩
  | .local _ .vmem, ⟨11, _⟩ => ⟨S2000x512, .f32⟩
  | .local _ .vmem, ⟨12, _⟩ => ⟨S2000x512, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x24 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S24x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S100000x24 : S_.BroadcastsInDim S100000x24 (![] : Fin 0 → Fin S100000x24.rank)
  bcast_S3200000_S3200000x1_0 : S3200000.BroadcastsInDim S3200000x1 (![0] : Fin 1 → Fin S3200000x1.rank)
  slices_S512x536_S512x512_0_0 : S512x536.Slices ![0, 0] S512x512
  transposes_S512x512_S512x512_1_0 : S512x512.Transposes [1, 0] S512x512
  bitsLt_bf16_f32 : FTy.bits .bf16 < FTy.bits .f32
  slices_S512x536_S512x24_0_512 : S512x536.Slices ![0, 512] S512x24
  transposes_S512x24_S24x512_1_0 : S512x24.Transposes [1, 0] S24x512
  inb_S2000x512_S2000x512_0_0 : ∀ a, (![0, 0] : Fin 2 → Nat) a + S2000x512.size a ≤ S2000x512.size a
  h_S2000x512 : 0 < S2000x512.numel
  inb_S2000x24_S2000x24_0_0 : ∀ a, (![0, 0] : Fin 2 → Nat) a + S2000x24.size a ≤ S2000x24.size a
  h_S2000x24 : 0 < S2000x24.numel
  shapeCasts_S2000x24_S2000x24 : S2000x24.ShapeCasts S2000x24
  inb_S2000x1_S2000x1_0_0 : ∀ a, (![0, 0] : Fin 2 → Nat) a + S2000x1.size a ≤ S2000x1.size a
  h_S2000x1 : 0 < S2000x1.numel
  broadcasts_S2000x1_S2000x24 : S2000x1.Broadcasts S2000x24
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S24x512_S24x512_0_0 : ∀ a, (![0, 0] : Fin 2 → Nat) a + S24x512.size a ≤ S24x512.size a
  h_S24x512 : 0 < S24x512.numel
  shapeCasts_S24x512_S24x512 : S24x512.ShapeCasts S24x512
  inb_S512_S512_0 : ∀ a, (![0] : Fin 1 → Nat) a + S512.size a ≤ S512.size a
  h_S512 : 0 < S512.numel
  shapeCasts_S512_S1x512 : S512.ShapeCasts S1x512
  broadcasts_S1x512_S2000x512 : S1x512.Broadcasts S2000x512
  reduces_S2000x512_S2000 : S2000x512.Reduces [1] S2000
  shapeCasts_S2000_S2000x1 : S2000.ShapeCasts S2000x1
  broadcasts_S2000x1_S2000x512 : S2000x1.Broadcasts S2000x512
  scatter_S100000x24_S3200000x1_S3200000x24_1_0_0_1_wf : ScatterDims.WF S100000x24 S3200000x1 S3200000x24 [1] [0] [0] 1
  dot_S2000x512_S512x512_S2000x512_1_0_0_1_n_n_wf : DotDims.WF S2000x512 S512x512 S2000x512 [1] [0] [0] [1] [] []
  dot_S2000x24_S24x512_S2000x512_1_0_0_1_n_n_wf : DotDims.WF S2000x24 S24x512 S2000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x24.size a ≤ S100000x24.size a
  hwx0_1 : ∀ i : grid0.Coords, EltTy.bits .f32 = 32 ∨ (Rect.block (s := S100000x24) S2000x24.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S24x512.size a ≤ S24x512.size a
  hwx0_4 : ∀ i : grid0.Coords, EltTy.bits .bf16 = 32 ∨ (Rect.block (s := S24x512) S24x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S512.size a
  hwx0_7 : ∀ i : grid0.Coords, EltTy.bits .f32 = 32 ∨ (Rect.block (s := S512) S512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x512.size a ≤ S100000x512.size a
  hwx0_8 : ∀ i : grid0.Coords, EltTy.bits .f32 = 32 ∨ (Rect.block (s := S100000x512) S2000x512.size (cc0_transform_8 i) (hinb0_8 i)).WholeWords (EltTy.packing .f32)

variable [Facts₀]

def scatter_S100000x24_S3200000x1_S3200000x24_1_0_0_1 : ScatterDims S100000x24 S3200000x1 S3200000x24 where
  updateWindowDims := [1]
  insertedWindowDims := [0]
  scatterDimsToOperandDims := [0]
  indexVectorDim := 1
  wf := scatter_S100000x24_S3200000x1_S3200000x24_1_0_0_1_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def dot_S2000x24_S24x512_S2000x512_1_0_0_1_n_n : DotDims S2000x24 S24x512 S2000x512 where
  lhsContracting := [1]
  rhsContracting := [0]
  lhsNonContracting := [0]
  rhsNonContracting := [1]
  lhsBatch := []
  rhsBatch := []
  wf := dot_S2000x24_S24x512_S2000x512_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2000x24.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S24x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S2000x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S100000x512 : Shape := ⟨2, ![100000, 512]⟩
abbrev S3200000x24 : Shape := ⟨2, ![3200000, 24]⟩
abbrev S3200000 : Shape := ⟨1, ![3200000]⟩
abbrev S100000x1 : Shape := ⟨2, ![100000, 1]⟩
abbrev S512x536 : Shape := ⟨2, ![512, 536]⟩
abbrev S512 : Shape := ⟨1, ![512]⟩
abbrev S_ : Shape := ⟨0, ![]⟩
abbrev S100000x24 : Shape := ⟨2, ![100000, 24]⟩
abbrev S3200000x1 : Shape := ⟨2, ![3200000, 1]⟩
abbrev S100000x536 : Shape := ⟨2, ![100000, 536]⟩
abbrev S1x512 : Shape := ⟨2, ![1, 512]⟩
abbrev S100000 : Shape := ⟨1, ![100000]⟩

abbrev nBuf : Space → Nat
  | .hbm => 51
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S3200000x24, .f32⟩
  | .hbm, ⟨2, _⟩ => ⟨S3200000, .i32⟩
  | .hbm, ⟨3, _⟩ => ⟨S100000x1, .f32⟩
  | .hbm, ⟨4, _⟩ => ⟨S512x536, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S_, .f32⟩
  | .hbm, ⟨9, _⟩ => ⟨S100000x24, .f32⟩
  | .hbm, ⟨10, _⟩ => ⟨S3200000x1, .i32⟩
  | .hbm, ⟨11, _⟩ => ⟨S100000x24, .f32⟩
  | .hbm, ⟨12, _⟩ => ⟨S100000x24, .f32⟩
  | .hbm, ⟨13, _⟩ => ⟨S100000x24, .f32⟩
  | .hbm, ⟨14, _⟩ => ⟨S100000x536, .f32⟩
  | .hbm, ⟨15, _⟩ => ⟨S100000x512, .f32⟩
  | .hbm, ⟨16, _⟩ => ⟨S1x512, .f32⟩
  | .hbm, ⟨17, _⟩ => ⟨S100000x512, .f32⟩
  | .hbm, ⟨18, _⟩ => ⟨S100000x512, .f32⟩
  | .hbm, ⟨19, _⟩ => ⟨S_, .f32⟩
  | .hbm, ⟨20, _⟩ => ⟨S100000, .f32⟩
  | .hbm, ⟨21, _⟩ => ⟨S100000x1, .f32⟩
  | .hbm, ⟨22, _⟩ => ⟨S_, .f32⟩
  | .hbm, ⟨23, _⟩ => ⟨S100000x1, .f32⟩
  | .hbm, ⟨24, _⟩ => ⟨S100000x1, .f32⟩
  | .hbm, ⟨25, _⟩ => ⟨S100000x512, .f32⟩
  | .hbm, ⟨26, _⟩ => ⟨S100000x512, .f32⟩
  | .hbm, ⟨27, _⟩ => ⟨S100000x512, .f32⟩
  | .hbm, ⟨28, _⟩ => ⟨S_, .f32⟩
  | .hbm, ⟨29, _⟩ => ⟨S100000, .f32⟩
  | .hbm, ⟨30, _⟩ => ⟨S100000x1, .f32⟩
  | .hbm, ⟨31, _⟩ => ⟨S_, .f32⟩
  | .hbm, ⟨32, _⟩ => ⟨S100000x1, .f32⟩
  | .hbm, ⟨33, _⟩ => ⟨S100000x1, .f32⟩
  | .hbm, ⟨34, _⟩ => ⟨S100000x512, .f32⟩
  | .hbm, ⟨35, _⟩ => ⟨S100000x512, .f32⟩
  | .hbm, ⟨36, _⟩ => ⟨S1x512, .f32⟩
  | .hbm, ⟨37, _⟩ => ⟨S100000x512, .f32⟩
  | .hbm, ⟨38, _⟩ => ⟨S100000x512, .f32⟩
  | .hbm, ⟨39, _⟩ => ⟨S_, .f32⟩
  | .hbm, ⟨40, _⟩ => ⟨S100000x1, .f32⟩
  | .hbm, ⟨41, _⟩ => ⟨S100000x1, .f32⟩
  | .hbm, ⟨42, _⟩ => ⟨S100000x1, .f32⟩
  | .hbm, ⟨43, _⟩ => ⟨S100000x512, .f32⟩
  | .hbm, ⟨44, _⟩ => ⟨S100000x512, .f32⟩
  | .hbm, ⟨45, _⟩ => ⟨S1x512, .f32⟩
  | .hbm, ⟨46, _⟩ => ⟨S100000x512, .f32⟩
  | .hbm, ⟨47, _⟩ => ⟨S100000x512, .f32⟩
  | .hbm, ⟨48, _⟩ => ⟨S_, .f32⟩
  | .hbm, ⟨49, _⟩ => ⟨S100000x512, .f32⟩
  | .hbm, ⟨50, _⟩ => ⟨S100000x512, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_call0_cst : Ref sig .tc := ⟨.hbm, 48, rfl⟩
abbrev main_call0_v0 : Ref sig .tc := ⟨.hbm, 49, rfl⟩
abbrev main_v34 : Ref sig .tc := ⟨.hbm, 50, rfl⟩

abbrev nD : Nat := 1
abbrev τ : Topo := Topo.v7x

variable {F : FTy → Type} [FloatOps F]

class Facts₀ : Prop where
  bcast_S_S100000x24 : S_.BroadcastsInDim S100000x24 (![] : Fin 0 → Fin S100000x24.rank)
  bcast_S3200000_S3200000x1_0 : S3200000.BroadcastsInDim S3200000x1 (![0] : Fin 1 → Fin S3200000x1.rank)
  bcast_S100000x1_S100000x24_0_1 : S100000x1.BroadcastsInDim S100000x24 (![0, 1] : Fin 2 → Fin S100000x24.rank)
  concatenates_S100000x512_S100000x24_S100000x536_d1 : Shape.Concatenates [S100000x512, S100000x24] S100000x536 1
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  reducesTo_S100000x512_S100000_d1 : S100000x512.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x512_0_1 : S100000x1.BroadcastsInDim S100000x512 (![0, 1] : Fin 2 → Fin S100000x512.rank)
  bcast_S_S100000x512 : S_.BroadcastsInDim S100000x512 (![] : Fin 0 → Fin S100000x512.rank)
  scatter_S100000x24_S3200000x1_S3200000x24_1_0_0_1_wf : ScatterDims.WF S100000x24 S3200000x1 S3200000x24 [1] [0] [0] 1
  dot_S100000x536_S512x536_S100000x512_1_1_0_0_n_n_wf : DotDims.WF S100000x536 S512x536 S100000x512 [1] [1] [0] [0] [] []

variable [Facts₀]

def scatter_S100000x24_S3200000x1_S3200000x24_1_0_0_1 : ScatterDims S100000x24 S3200000x1 S3200000x24 where
  updateWindowDims := [1]
  insertedWindowDims := [0]
  scatterDimsToOperandDims := [0]
  indexVectorDim := 1
  wf := scatter_S100000x24_S3200000x1_S3200000x24_1_0_0_1_wf
def dot_S100000x536_S512x536_S100000x512_1_1_0_0_n_n : DotDims S100000x536 S512x536 S100000x512 where
  lhsContracting := [1]
  rhsContracting := [1]
  lhsNonContracting := [0]
  rhsNonContracting := [0]
  lhsBatch := []
  rhsBatch := []
  wf := dot_S100000x536_S512x536_S100000x512_1_1_0_0_n_n_wf

class Facts : Prop extends Facts₀ where

variable [Facts]
-- ==== Proof.Spec.lean ====
/-
  The function both programs compute, on the extended reals, written once and without either program.

  For a node row `n` the pre-normalisation activations are a linear map of the row's 536 features — its 512 node
  features followed by its 24 aggregated edge features, each of the latter scaled by the node's norm — plus a bias:
  `y n o = ∑ d, h n d · W o d + ∑ e, (ah n e · norm n) · W o (512 + e) + b o`.
  Each row of `y` is then normalised over its 512 entries (mean and mean squared deviation as sums divided by 512,
  the deviation scaled by `gamma` and by the reciprocal square root of the variance plus a small constant, `beta` added)
  and clamped below at zero.

  The only rearrangement between the two programs is that one contracts the 536 features in one sum and the other in
  two (the first 512, then the last 24): `sum_split`, which holds in any commutative additive monoid and so on the
  extended reals with no finiteness assumption.
-/
import Idealize.ShloMosaic.PureOps.Ideal
import Idealize.ShloMosaic.Lib.ValueIdx

noncomputable section

namespace Cert.GcnNorm

open Idealize.ShloMosaic Idealize.ShloMosaic.ValueIdx
open scoped BigOperators

/-- The row width 512 as the float constant both programs divide by. -/
abbrev width : EReal := Ideal.ofBits .f32 0x44000000#32
/-- The small constant added to the variance. -/
abbrev eps : EReal := Ideal.ofBits .f32 0x3727C5AC#32
/-- The zero the result is clamped at. -/
abbrev zero32 : EReal := Ideal.ofBits .f32 0x00000000#32

/-- The mean of a row of 512 entries: their sum divided by 512. -/
def mean (y : Fin 512 → EReal) : EReal := Ideal.div (∑ k : Fin 512, y k) width

/-- The mean squared deviation of a row from its mean. -/
def var (y : Fin 512 → EReal) : EReal := Ideal.div (∑ k : Fin 512, (y k - mean y) * (y k - mean y)) width

/-- One entry of a row after normalisation with scale `g` and shift `bt`, clamped below at zero. -/
def lnRelu (y g bt : Fin 512 → EReal) (q : Fin 512) : EReal :=
  max ((g q * (y q - mean y)) * Ideal.rsqrt (var y + eps) + bt q) zero32

/-- One row of the linear map with the contraction split in two: 512 node features against `Wh`, 24 scaled edge
    features against `We`, plus the bias. -/
def linRow (hrow : Fin 512 → EReal) (arow : Fin 24 → EReal) (nr : EReal) (Wh : Fin 512 → Fin 512 → EReal)
    (We : Fin 24 → Fin 512 → EReal) (b : Fin 512 → EReal) (o : Fin 512) : EReal :=
  ((∑ d : Fin 512, hrow d * Wh d o) + ∑ e : Fin 24, (arow e * nr) * We e o) + b o

/-- Entry `(n, o)` of the result from the whole arrays: node features `h`, aggregated edge features `ah`, node norms
    `nrm`, weights `W` (output × 536 features), bias `b`, scale `g`, shift `bt`. -/
def entry (h : (⟨2, ![100000, 512]⟩ : Shape).Idx → EReal) (ah : (⟨2, ![100000, 24]⟩ : Shape).Idx → EReal)
    (nrm : (⟨2, ![100000, 1]⟩ : Shape).Idx → EReal) (W : (⟨2, ![512, 536]⟩ : Shape).Idx → EReal)
    (b g bt : (⟨1, ![512]⟩ : Shape).Idx → EReal) (n : Fin 100000) (o : Fin 512) : EReal :=
  lnRelu
    (linRow (fun d => h (ix2 n d)) (fun e => ah (ix2 n e)) (nrm (ix2 n (0 : Fin 1)))
      (fun d o' => W (ix2 o' (⟨d.val, by omega⟩ : Fin 536))) (fun e o' => W (ix2 o' (⟨512 + e.val, by omega⟩ : Fin 536)))
      (fun o' => b (ix1 o')))
    (fun o' => g (ix1 o')) (fun o' => bt (ix1 o')) o

/-- The whole result array. -/
def result (h : (⟨2, ![100000, 512]⟩ : Shape).Idx → EReal) (ah : (⟨2, ![100000, 24]⟩ : Shape).Idx → EReal)
    (nrm : (⟨2, ![100000, 1]⟩ : Shape).Idx → EReal) (W : (⟨2, ![512, 536]⟩ : Shape).Idx → EReal)
    (b g bt : (⟨1, ![512]⟩ : Shape).Idx → EReal) : (⟨2, ![100000, 512]⟩ : Shape).Idx → EReal :=
  fun i => entry h ah nrm W b g bt (i 0) (i 1)

theorem result_ix2 (h : (⟨2, ![100000, 512]⟩ : Shape).Idx → EReal) (ah : (⟨2, ![100000, 24]⟩ : Shape).Idx → EReal)
    (nrm : (⟨2, ![100000, 1]⟩ : Shape).Idx → EReal) (W : (⟨2, ![512, 536]⟩ : Shape).Idx → EReal)
    (b g bt : (⟨1, ![512]⟩ : Shape).Idx → EReal) (n : Fin 100000) (o : Fin 512) :
    result h ah nrm W b g bt (ix2 n o) = entry h ah nrm W b g bt n o := rfl

/-- A sum over 536 indices is the sum over the first 512 plus the sum over the last 24. -/
theorem sum_split {M : Type*} [AddCommMonoid M] (f : Fin 536 → M) :
    ∑ k : Fin 536, f k
      = (∑ d : Fin 512, f (⟨d.val, by omega⟩ : Fin 536)) + ∑ e : Fin 24, f (⟨512 + e.val, by omega⟩ : Fin 536) :=
  Fin.sum_univ_add (a := 512) (b := 24) f

end Cert.GcnNorm

end
-- ==== Proof.RefIsSpec.lean ====
/-
  The single-contraction program is the common function.

  Its activations before normalisation, entry `(n, o)`, are `∑ k < 536, x n k · W o k + b o`, where row `n` of `x` is the
  node's 512 features followed by its 24 aggregated edge features times the node's norm. Reading the concatenation on
  each side of column 512 and splitting the sum there gives the two-part contraction of the specification
  (`pre_eq`). The row mean and variance are then zero plus the row's sum, divided by 512 (`mean_eq`, `var_eq`), and the
  last steps — scale, reciprocal square root, shift, maximum with zero — are the specification's, entry by entry
  (`ref_eq`). The aggregated edge features enter only as an array: the scatter-add is never opened.
-/
import proofs.«156820_j32753420599856_2_alg».proof.Proof.Gen.ReferenceIdeal.Read
import proofs.«156820_j32753420599856_2_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx Cert.GcnNorm
open scoped BigOperators

variable (x0 : (⟨S100000x512, .f32⟩ : BufTy).Contents (Elt Ideal)) (x1 : (⟨S3200000x24, .f32⟩ : BufTy).Contents (Elt Ideal))
  (x2 : (⟨S3200000, .i32⟩ : BufTy).Contents (Elt Ideal)) (x3 : (⟨S100000x1, .f32⟩ : BufTy).Contents (Elt Ideal))
  (x4 : (⟨S512x536, .f32⟩ : BufTy).Contents (Elt Ideal)) (x5 x6 x7 : (⟨S512, .f32⟩ : BufTy).Contents (Elt Ideal))

/-- Feature `k < 512` of row `n` of the concatenation is node feature `k` of that row. -/
theorem cat_left (n : Fin 100000) (o : Fin 512) (d : Fin 512) (k : Fin 536) (hk : k.val = d.val) :
    val_main_v5 (F := Ideal) x0 x1 x2 x3 (lidx_main_v6 (ix2 n o) k) = x0 (ix2 n d) := by
  unfold val_main_v5
  exact concatenate_pair_apply_left (1 : Fin 2) x0 (val_main_v4 (F := Ideal) x1 x2 x3) _ (lidx_main_v6 (ix2 n o) k) rfl (ix2 n d)
    (fun b => by match b with | ⟨0, _⟩ => rfl | ⟨1, _⟩ => exact hk.symm)

/-- Feature `512 + e` of row `n` of the concatenation is aggregated edge feature `e` of that row times the row's norm. -/
theorem cat_right (n : Fin 100000) (o : Fin 512) (e : Fin 24) (k : Fin 536) (hk : k.val = 512 + e.val) :
    val_main_v5 (F := Ideal) x0 x1 x2 x3 (lidx_main_v6 (ix2 n o) k)
      = val_main_v2 (F := Ideal) x1 x2 (ix2 n e) * x3 (ix2 n (0 : Fin 1)) := by
  unfold val_main_v5
  refine (concatenate_pair_apply_right (1 : Fin 2) x0 (val_main_v4 (F := Ideal) x1 x2 x3) _ (lidx_main_v6 (ix2 n o) k) rfl rfl
    (ix2 n e) (fun b hb => ?_) ?_).trans ?_
  · match b with
    | ⟨0, _⟩ => rfl
    | ⟨1, _⟩ => exact absurd rfl hb
  · show e.val + 512 = k.val
    omega
  · rw [val_main_v4_apply, val_main_v3_apply]
    have e3 : idx_main_v3 (ix2 n e) = ix2 n (0 : Fin 1) :=
      funext fun a => by match a with | ⟨0, _⟩ => rfl | ⟨1, _⟩ => rfl
    rw [e3]
    rfl

/-- The activations before normalisation, entry `(n, o)`: the one 536-term contraction is the two-part one. -/
theorem pre_eq (n : Fin 100000) (o : Fin 512) :
    val_main_v9 (F := Ideal) x0 x1 x2 x3 x4 x5 (ix2 n o)
      = linRow (fun d => x0 (ix2 n d)) (fun e => val_main_v2 (F := Ideal) x1 x2 (ix2 n e)) (x3 (ix2 n (0 : Fin 1)))
          (fun d o' => x4 (ix2 o' (⟨d.val, by omega⟩ : Fin 536))) (fun e o' => x4 (ix2 o' (⟨512 + e.val, by omega⟩ : Fin 536)))
          (fun o' => x5 (ix1 o')) o := by
  rw [val_main_v9_apply, val_main_v6_apply, val_main_v8_apply, val_main_v7_apply]
  unfold linRow
  rw [sum_split]
  have eb : idx_main_v7 (idx_main_v8 (ix2 n o)) = ix1 o := funext fun a => by match a with | ⟨0, _⟩ => rfl
  have er : ∀ k : Fin 536, ridx_main_v6 (ix2 n o) k = ix2 o k :=
    fun k => funext fun a => by match a with | ⟨0, _⟩ => rfl | ⟨1, _⟩ => rfl
  rw [eb]
  show (_ + _) + _ = (_ + _) + _
  refine congrArg (· + x5 (ix1 o)) (congrArg₂ (· + ·) (Finset.sum_congr rfl fun d _ => ?_) (Finset.sum_congr rfl fun e _ => ?_))
  · rw [cat_left x0 x1 x2 x3 n o d _ rfl, er]
  · rw [cat_right x0 x1 x2 x3 n o e _ rfl, er]

/-- Row `n` of the activations before normalisation, as the specification's row. -/
abbrev yrow (n : Fin 100000) : Fin 512 → EReal :=
  linRow (fun d => x0 (ix2 n d)) (fun e => val_main_v2 (F := Ideal) x1 x2 (ix2 n e)) (x3 (ix2 n (0 : Fin 1)))
    (fun d o' => x4 (ix2 o' (⟨d.val, by omega⟩ : Fin 536))) (fun e o' => x4 (ix2 o' (⟨512 + e.val, by omega⟩ : Fin 536)))
    (fun o' => x5 (ix1 o'))

/-- The reference's row mean: zero plus the row's sum, divided by 512. -/
theorem mean_eq (n : Fin 100000) :
    val_main_v13 (F := Ideal) x0 x1 x2 x3 x4 x5 (ix2 n (0 : Fin 1)) = mean (yrow x0 x1 x2 x3 x4 x5 n) := by
  rw [val_main_v13_apply, val_main_v11_apply, val_main_v10_apply, val_main_v12_apply, val_main_cst_1_apply,
    val_main_cst_0_apply]
  unfold mean
  simp only [Ideal.hostDivf_def, Ideal.ofBits_def, Ideal.ofBits_zero_f32, zero_add]
  refine congrArg (Ideal.div · width) (Finset.sum_congr rfl fun k _ => ?_)
  have e : idx_main_v10 (idx_main_v11 (ix2 n (0 : Fin 1))) k = ix2 n k :=
    funext fun a => by match a with | ⟨0, _⟩ => rfl | ⟨1, _⟩ => rfl
  rw [e]
  exact pre_eq x0 x1 x2 x3 x4 x5 n k

/-- An entry's deviation from its row mean. -/
theorem dev_eq (n : Fin 100000) (k : Fin 512) :
    val_main_v15 (F := Ideal) x0 x1 x2 x3 x4 x5 (ix2 n k)
      = yrow x0 x1 x2 x3 x4 x5 n k - mean (yrow x0 x1 x2 x3 x4 x5 n) := by
  rw [val_main_v15_apply, val_main_v14_apply]
  have e : idx_main_v14 (ix2 n k) = ix2 n (0 : Fin 1) := funext fun a => by match a with | ⟨0, _⟩ => rfl | ⟨1, _⟩ => rfl
  rw [e, mean_eq, pre_eq]
  rfl

/-- The reference's row variance. -/
theorem var_eq (n : Fin 100000) :
    val_main_v20 (F := Ideal) x0 x1 x2 x3 x4 x5 (ix2 n (0 : Fin 1)) = var (yrow x0 x1 x2 x3 x4 x5 n) := by
  rw [val_main_v20_apply, val_main_v18_apply, val_main_v17_apply, val_main_v19_apply, val_main_cst_3_apply,
    val_main_cst_2_apply]
  unfold var
  simp only [Ideal.hostDivf_def, Ideal.ofBits_def, Ideal.ofBits_zero_f32, zero_add]
  refine congrArg (Ideal.div · width) (Finset.sum_congr rfl fun k _ => ?_)
  have e : idx_main_v17 (idx_main_v18 (ix2 n (0 : Fin 1))) k = ix2 n k :=
    funext fun a => by match a with | ⟨0, _⟩ => rfl | ⟨1, _⟩ => rfl
  rw [e, val_main_v16_apply, dev_eq]
  rfl

/-- The reference's result is the specification of its arguments, the aggregated edge features being the
    scatter-add of the edge features at the destination indices. -/
theorem ref_eq :
    val_main_v34 (F := Ideal) x0 x1 x2 x3 x4 x5 x6 x7
      = result x0 (val_main_v2 (F := Ideal) x1 x2) x3 x4 x5 x6 x7 := by
  funext i
  obtain ⟨n, o, rfl⟩ : ∃ (n : Fin 100000) (o : Fin 512), i = ix2 n o := ⟨i 0, i 1, eq_ix2 i⟩
  rw [result_ix2]
  rw [val_main_v34_apply, val_main_call0_v0_apply, val_main_call0_cst_apply, val_main_v33_apply, val_main_v32_apply,
    val_main_v31_apply, val_main_v30_apply, val_main_v29_apply, val_main_v28_apply, val_main_v27_apply,
    val_main_v26_apply, val_main_cst_4_apply, val_main_v25_apply, val_main_v24_apply, val_main_v23_apply,
    val_main_v22_apply, val_main_v21_apply]
  have e1 : idx_main_v31 (idx_main_v32 (ix2 n o)) = ix1 o := funext fun a => by match a with | ⟨0, _⟩ => rfl
  have e2 : idx_main_v23 (idx_main_v24 (ix2 n o)) = ix1 o := funext fun a => by match a with | ⟨0, _⟩ => rfl
  have e3 : idx_main_v29 (ix2 n o) = ix2 n (0 : Fin 1) := funext fun a => by match a with | ⟨0, _⟩ => rfl | ⟨1, _⟩ => rfl
  have e4 : idx_main_v21 (ix2 n o) = ix2 n (0 : Fin 1) := funext fun a => by match a with | ⟨0, _⟩ => rfl | ⟨1, _⟩ => rfl
  rw [e1, e2, e3, e4, var_eq, mean_eq, pre_eq]
  rfl

end Cert.ReferenceIdeal.RefValue

end
-- ==== Proof.KernelPay.lean ====
/-
  The blocked program's arithmetic on one block of 2000 rows, read at an entry `(p, q)`.

  The two matrix products into zero accumulators are plain sums over the contracted index (512 node features, 24 edge
  features, the latter each scaled by the row's norm); a sum along a row is a sum over its 512 columns; a row vector
  repeated down the block reads its column's entry, a column repeated across the block reads its row's entry. With
  these, the block before normalisation is the specification's linear row of the input blocks' row `p` (`pre_apply`),
  the row average is the specification's mean (`rowAvg_apply`), and the scaled, normalised deviation is the
  specification's (`pay2_apply`). Changes of float format are the identity on the extended reals.
-/
import proofs.«156820_j32753420599856_2_alg».proof.Proof.Gen.KernelIdeal.Skeleton
import proofs.«156820_j32753420599856_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PayValue

open Cert.KernelIdeal Cert.KernelIdeal.Gen Idealize.ShloMosaic Idealize.ShloMosaic.ValueIdx Cert.GcnNorm
open scoped BigOperators

/-! ## Layout reads at coordinates -/

section Layout
variable {α : Type}

/-- A vector of `b` entries laid out as one row and repeated over `a` rows reads, at `(p, c)`, its entry `c`. -/
theorem rowBcast_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A column of `a` entries repeated over `b` columns reads, at `(p, c)`, the column's entry `p`. -/
theorem colBcast_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of `a` entries laid out as a column reads, at `(p, 0)`, its entry `p`. -/
theorem colCast_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    omega)

end Layout

/-! ## The lane sum and the two matrix products at an entry -/

/-- The sum along a row of a 2000 × 512 block, at row `p`. -/
theorem laneSum_apply (src : FVec Ideal S2000x512 .f32) (h : S2000x512.Reduces [1] S2000) (hφ : FKind.Formats .f32)
    (hacc : (0x00000000#32 : BitVec 32) = FKind.add.neutral .f32 hφ) (p : Fin 2000) :
    multiReduction .add [1] S2000 src 0x00000000#32 h hφ hacc (ix1 p) = ∑ k : Fin 512, src (ix2 p k) := by
  refine (Ideal.multiReduction_add_single src 0x00000000#32 h hφ hacc (ix1 p)).trans ?_
  show ∑ k : Fin 512, src (h.lift (ix1 p) k) = _
  refine Finset.sum_congr rfl fun k _ => congrArg src (funext fun a => Fin.ext ?_)
  match a with
  | ⟨0, _⟩ => rfl
  | ⟨1, _⟩ => rfl

theorem mm1_lhs0 (j : S2000x512.Idx) (k : dot_S2000x512_S512x512_S2000x512_1_0_0_1_n_n.contr.Idx) : (dot_S2000x512_S512x512_S2000x512_1_0_0_1_n_n.lhsIdx j k 0).val = (j 0).val := by
  unfold DotDims.lhsIdx
  rw [dif_neg (show ¬(0 : Fin S2000x512.rank) ∈ dot_S2000x512_S512x512_S2000x512_1_0_0_1_n_n.lhsBatch by decide),
    dif_pos (show (0 : Fin S2000x512.rank) ∈ dot_S2000x512_S512x512_S2000x512_1_0_0_1_n_n.lhsNonContracting by decide)]
  rfl
theorem mm1_rhs1 (j : S2000x512.Idx) (k : dot_S2000x512_S512x512_S2000x512_1_0_0_1_n_n.contr.Idx) : (dot_S2000x512_S512x512_S2000x512_1_0_0_1_n_n.rhsIdx j k 1).val = (j 1).val := by
  unfold DotDims.rhsIdx
  rw [dif_neg (show ¬(1 : Fin S512x512.rank) ∈ dot_S2000x512_S512x512_S2000x512_1_0_0_1_n_n.rhsBatch by decide),
    dif_pos (show (1 : Fin S512x512.rank) ∈ dot_S2000x512_S512x512_S2000x512_1_0_0_1_n_n.rhsNonContracting by decide)]
  rfl

/-- The node-feature product into a zero accumulator, entry `(p, q)`: the sum over the 512 features. -/
theorem mm1_apply (L : FVec Ideal S2000x512 .bf16) (R : FVec Ideal S512x512 .bf16) (p : Fin 2000) (q : Fin 512) :
    matmul dot_S2000x512_S512x512_S2000x512_1_0_0_1_n_n none L R (constant S2000x512 .f32 0x00000000#32) (ix2 p q) = ∑ d : Fin 512, L (ix2 p d) * R (ix2 d q) := by
  refine (Ideal.matmul_constant_zero_apply dot_S2000x512_S512x512_S2000x512_1_0_0_1_n_n none L R (ix2 p q)).trans ?_
  rw [← Equiv.sum_comp (contrEquiv1 dot_S2000x512_S512x512_S2000x512_1_0_0_1_n_n 512 rfl rfl).symm]
  refine Finset.sum_congr rfl fun k _ => ?_
  have hk := contrEquiv1_symm_val dot_S2000x512_S512x512_S2000x512_1_0_0_1_n_n 512 rfl rfl k
  have el : dot_S2000x512_S512x512_S2000x512_1_0_0_1_n_n.lhsIdx (ix2 p q) ((contrEquiv1 dot_S2000x512_S512x512_S2000x512_1_0_0_1_n_n 512 rfl rfl).symm k) = ix2 p k := funext fun a => Fin.ext (by
    match a with
    | ⟨0, _⟩ => exact mm1_lhs0 _ _
    | ⟨1, _⟩ => exact (dot_S2000x512_S512x512_S2000x512_1_0_0_1_n_n.lhsIdx_val_of_single rfl _ _).trans hk)
  have er : dot_S2000x512_S512x512_S2000x512_1_0_0_1_n_n.rhsIdx (ix2 p q) ((contrEquiv1 dot_S2000x512_S512x512_S2000x512_1_0_0_1_n_n 512 rfl rfl).symm k) = ix2 k q := funext fun a => Fin.ext (by
    match a with
    | ⟨0, _⟩ => exact (dot_S2000x512_S512x512_S2000x512_1_0_0_1_n_n.rhsIdx_val_of_single rfl _ _).trans hk
    | ⟨1, _⟩ => exact mm1_rhs1 _ _)
  rw [el, er]

theorem mm2_lhs0 (j : S2000x512.Idx) (k : dot_S2000x24_S24x512_S2000x512_1_0_0_1_n_n.contr.Idx) : (dot_S2000x24_S24x512_S2000x512_1_0_0_1_n_n.lhsIdx j k 0).val = (j 0).val := by
  unfold DotDims.lhsIdx
  rw [dif_neg (show ¬(0 : Fin S2000x24.rank) ∈ dot_S2000x24_S24x512_S2000x512_1_0_0_1_n_n.lhsBatch by decide),
    dif_pos (show (0 : Fin S2000x24.rank) ∈ dot_S2000x24_S24x512_S2000x512_1_0_0_1_n_n.lhsNonContracting by decide)]
  rfl
theorem mm2_rhs1 (j : S2000x512.Idx) (k : dot_S2000x24_S24x512_S2000x512_1_0_0_1_n_n.contr.Idx) : (dot_S2000x24_S24x512_S2000x512_1_0_0_1_n_n.rhsIdx j k 1).val = (j 1).val := by
  unfold DotDims.rhsIdx
  rw [dif_neg (show ¬(1 : Fin S24x512.rank) ∈ dot_S2000x24_S24x512_S2000x512_1_0_0_1_n_n.rhsBatch by decide),
    dif_pos (show (1 : Fin S24x512.rank) ∈ dot_S2000x24_S24x512_S2000x512_1_0_0_1_n_n.rhsNonContracting by decide)]
  rfl

/-- The edge-feature product into a zero accumulator, entry `(p, q)`: the sum over the 24 features. -/
theorem mm2_apply (L : FVec Ideal S2000x24 .bf16) (R : FVec Ideal S24x512 .bf16) (p : Fin 2000) (q : Fin 512) :
    matmul dot_S2000x24_S24x512_S2000x512_1_0_0_1_n_n none L R (constant S2000x512 .f32 0x00000000#32) (ix2 p q) = ∑ e : Fin 24, L (ix2 p e) * R (ix2 e q) := by
  refine (Ideal.matmul_constant_zero_apply dot_S2000x24_S24x512_S2000x512_1_0_0_1_n_n none L R (ix2 p q)).trans ?_
  rw [← Equiv.sum_comp (contrEquiv1 dot_S2000x24_S24x512_S2000x512_1_0_0_1_n_n 24 rfl rfl).symm]
  refine Finset.sum_congr rfl fun k _ => ?_
  have hk := contrEquiv1_symm_val dot_S2000x24_S24x512_S2000x512_1_0_0_1_n_n 24 rfl rfl k
  have el : dot_S2000x24_S24x512_S2000x512_1_0_0_1_n_n.lhsIdx (ix2 p q) ((contrEquiv1 dot_S2000x24_S24x512_S2000x512_1_0_0_1_n_n 24 rfl rfl).symm k) = ix2 p k := funext fun a => Fin.ext (by
    match a with
    | ⟨0, _⟩ => exact mm2_lhs0 _ _
    | ⟨1, _⟩ => exact (dot_S2000x24_S24x512_S2000x512_1_0_0_1_n_n.lhsIdx_val_of_single rfl _ _).trans hk)
  have er : dot_S2000x24_S24x512_S2000x512_1_0_0_1_n_n.rhsIdx (ix2 p q) ((contrEquiv1 dot_S2000x24_S24x512_S2000x512_1_0_0_1_n_n 24 rfl rfl).symm k) = ix2 k q := funext fun a => Fin.ext (by
    match a with
    | ⟨0, _⟩ => exact (dot_S2000x24_S24x512_S2000x512_1_0_0_1_n_n.rhsIdx_val_of_single rfl _ _).trans hk
    | ⟨1, _⟩ => exact mm2_rhs1 _ _)
  rw [el, er]

/-! ## The payload in stages, each read at an entry -/

/-- The block of activations before normalisation: the two products summed, plus the bias row. -/
def pre (P0 : Vec Ideal S2000x512 .f32) (P1 : Vec Ideal S2000x24 .f32) (P2 : Vec Ideal S2000x1 .f32)
    (P3 : Vec Ideal S512x512 .bf16) (P4 : Vec Ideal S24x512 .bf16) (P5 : Vec Ideal S512 .f32) : FVec Ideal S2000x512 .f32 :=
  addf
    (addf
      (matmul dot_S2000x512_S512x512_S2000x512_1_0_0_1_n_n none (truncf .bf16 P0 bitsLt_bf16_f32) (shapeCast S512x512 P3 shapeCasts_S512x512_S512x512 : FVec Ideal S512x512 .bf16)
        (constant S2000x512 .f32 0x00000000#32))
      (matmul dot_S2000x24_S24x512_S2000x512_1_0_0_1_n_n none
        (truncf .bf16 (mulf (shapeCast S2000x24 P1 shapeCasts_S2000x24_S2000x24) (broadcastTo S2000x24 P2 broadcasts_S2000x1_S2000x24))
          bitsLt_bf16_f32)
        (shapeCast S24x512 P4 shapeCasts_S24x512_S24x512 : FVec Ideal S24x512 .bf16) (constant S2000x512 .f32 0x00000000#32)))
    (broadcastTo S2000x512 (shapeCast S1x512 P5 shapeCasts_S512_S1x512) broadcasts_S1x512_S2000x512)

/-- Each row's sum divided by 512, as a column. -/
def rowAvg (v : FVec Ideal S2000x512 .f32) : FVec Ideal S2000x1 .f32 :=
  divf (shapeCast S2000x1 (multiReduction .add [1] S2000 v 0x00000000#32 reduces_S2000x512_S2000 (.inl rfl) rfl) shapeCasts_S2000_S2000x1)
    (broadcast S2000x1 (Scalar.ofBits .f32 0x44000000#32))

/-- Each entry less its row's average. -/
def dev (v : FVec Ideal S2000x512 .f32) : FVec Ideal S2000x512 .f32 :=
  subf v (broadcastTo S2000x512 (rowAvg v) broadcasts_S2000x1_S2000x512)

/-- The body's arithmetic up to the scaled, normalised deviation is these stages composed. -/
theorem pay2_stages (P0 : Vec Ideal S2000x512 .f32) (P1 : Vec Ideal S2000x24 .f32) (P2 : Vec Ideal S2000x1 .f32)
    (P3 : Vec Ideal S512x512 .bf16) (P4 : Vec Ideal S24x512 .bf16) (P5 P6 : Vec Ideal S512 .f32) :
    k0_pay2 (F := Ideal) P0 P1 P2 P3 P4 P5 P6
      = mulf
          (mulf (broadcastTo S2000x512 (shapeCast S1x512 P6 shapeCasts_S512_S1x512) broadcasts_S1x512_S2000x512)
            (dev (pre P0 P1 P2 P3 P4 P5)))
          (broadcastTo S2000x512
            (rsqrt (addf (rowAvg (mulf (dev (pre P0 P1 P2 P3 P4 P5)) (dev (pre P0 P1 P2 P3 P4 P5))))
              (broadcast S2000x1 (Scalar.ofBits .f32 0x3727C5AC#32))))
            broadcasts_S2000x1_S2000x512) := rfl

/-- Entry `(p, q)` of the block before normalisation is the specification's linear row of the blocks' rows. -/
theorem pre_apply (P0 : Vec Ideal S2000x512 .f32) (P1 : Vec Ideal S2000x24 .f32) (P2 : Vec Ideal S2000x1 .f32)
    (P3 : Vec Ideal S512x512 .bf16) (P4 : Vec Ideal S24x512 .bf16) (P5 : Vec Ideal S512 .f32) (p : Fin 2000) (q : Fin 512) :
    pre P0 P1 P2 P3 P4 P5 (ix2 p q)
      = linRow (fun d => P0 (ix2 p d)) (fun e => P1 (ix2 p e)) (P2 (ix2 p (0 : Fin 1))) (fun d o => P3 (ix2 d o))
          (fun e o => P4 (ix2 e o)) (fun o => P5 (ix1 o)) q := by
  unfold pre linRow
  rw [addf_apply, addf_apply, mm1_apply, mm2_apply, rowBcast_apply]
  refine congrArg (· + P5 (ix1 q)) (congrArg₂ (· + ·) (Finset.sum_congr rfl fun d _ => ?_) (Finset.sum_congr rfl fun e _ => ?_))
  · rw [truncf_apply, shapeCast_self]
  · rw [truncf_apply, mulf_apply, shapeCast_self, shapeCast_self, colBcast_apply]

/-- The row average at row `p` is the specification's mean of that row. -/
theorem rowAvg_apply (v : FVec Ideal S2000x512 .f32) (p : Fin 2000) :
    rowAvg v (ix2 p (0 : Fin 1)) = mean (fun k => v (ix2 p k)) := by
  unfold rowAvg mean
  rw [divf_apply, broadcast_apply]
  refine congrArg (Ideal.div · width) ?_
  refine (colCast_apply _ _ p 0).trans ?_
  exact laneSum_apply v _ _ _ p

/-- The deviation at `(p, q)`. -/
theorem dev_apply (v : FVec Ideal S2000x512 .f32) (p : Fin 2000) (q : Fin 512) :
    dev v (ix2 p q) = v (ix2 p q) - mean (fun k => v (ix2 p k)) := by
  unfold dev
  rw [subf_apply, colBcast_apply, rowAvg_apply]

/-- The body's scaled, normalised deviation at `(p, q)`, over the specification's row. -/
theorem pay2_apply (P0 : Vec Ideal S2000x512 .f32) (P1 : Vec Ideal S2000x24 .f32) (P2 : Vec Ideal S2000x1 .f32)
    (P3 : Vec Ideal S512x512 .bf16) (P4 : Vec Ideal S24x512 .bf16) (P5 P6 : Vec Ideal S512 .f32) (p : Fin 2000) (q : Fin 512)
    (y : Fin 512 → EReal)
    (hy : y = linRow (fun d => P0 (ix2 p d)) (fun e => P1 (ix2 p e)) (P2 (ix2 p (0 : Fin 1))) (fun d o => P3 (ix2 d o))
          (fun e o => P4 (ix2 e o)) (fun o => P5 (ix1 o))) :
    k0_pay2 (F := Ideal) P0 P1 P2 P3 P4 P5 P6 (ix2 p q)
      = (P6 (ix1 q) * (y q - mean y)) * Ideal.rsqrt (var y + eps) := by
  have hrow : (fun k => pre P0 P1 P2 P3 P4 P5 (ix2 p k)) = y := by
    rw [hy]; exact funext fun k => pre_apply P0 P1 P2 P3 P4 P5 p k
  rw [pay2_stages, mulf_apply, mulf_apply, rowBcast_apply, colBcast_apply, dev_apply, hrow]
  have hvar : rowAvg (mulf (dev (pre P0 P1 P2 P3 P4 P5)) (dev (pre P0 P1 P2 P3 P4 P5))) (ix2 p (0 : Fin 1)) = var y := by
    rw [rowAvg_apply]
    unfold var
    refine congrArg (Ideal.div · width) (Finset.sum_congr rfl fun k _ => ?_)
    have hk : pre P0 P1 P2 P3 P4 P5 (ix2 p k) = y k := congrFun hrow k
    show dev (pre P0 P1 P2 P3 P4 P5) (ix2 p k) * dev (pre P0 P1 P2 P3 P4 P5) (ix2 p k) = _
    rw [dev_apply, hrow, hk]
  show (P6 (ix1 q) * (pre P0 P1 P2 P3 P4 P5 (ix2 p q) - mean y))
      * Ideal.rsqrt (rowAvg (mulf (dev (pre P0 P1 P2 P3 P4 P5)) (dev (pre P0 P1 P2 P3 P4 P5))) (ix2 p (0 : Fin 1)) + eps) = _
  have hq : pre P0 P1 P2 P3 P4 P5 (ix2 p q) = y q := congrFun hrow q
  rw [hvar, hq]

end Cert.KernelIdeal.PayValue

end
-- ==== Proof.KernelOut.lean ====
/-
  What the body leaves in its output block, entry `(p, q)`: the scaled, normalised deviation plus the shift, clamped
  below at zero — the specification's row function of row `p` of the input blocks (`out_apply`).
-/
import proofs.«156820_j32753420599856_2_alg».proof.Proof.Gen.KernelIdeal.Value
import proofs.«156820_j32753420599856_2_alg».proof.Proof.KernelPay
import proofs.«156820_j32753420599856_2_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.BlockValue

open Cert.KernelIdeal Cert.KernelIdeal.Gen Idealize.ShloMosaic Idealize.ShloMosaic.TcCoe
open Idealize.SL.Sem Idealize.ShloMosaic.ValueIdx Idealize.ShloMosaic.StableHlo
open Idealize.ShloMosaic.Pipeline (Dat)
open Cert.KernelIdeal.PayValue Cert.GcnNorm
open scoped BigOperators

theorem hz2 : (![0, 0] : Fin 2 → Nat) = fun _ => 0 := funext fun a => by fin_cases a <;> rfl
theorem hz1 : (![0] : Fin 1 → Nat) = fun _ => 0 := funext fun a => by fin_cases a; rfl

/-- What the body leaves in the output block, entry `(p, q)`, from the eight input blocks: the specification's
    normalised, clamped row of the blocks' row `p`. -/
theorem out_apply (x0 : Vec Ideal S2000x512 .f32) (x1 : Vec Ideal S2000x24 .f32) (x2 : Vec Ideal S2000x1 .f32)
    (x3 : Vec Ideal S512x512 .bf16) (x4 : Vec Ideal S24x512 .bf16) (x5 x6 x7 : Vec Ideal S512 .f32) (p : Fin 2000) (q : Fin 512) :
    out0_8 (F := Ideal) x0 x1 x2 x3 x4 x5 x6 x7 (ix2 p q)
      = lnRelu
          (linRow (fun d => x0 (ix2 p d)) (fun e => x1 (ix2 p e)) (x2 (ix2 p (0 : Fin 1))) (fun d o => x3 (ix2 d o))
            (fun e o => x4 (ix2 e o)) (fun o => x5 (ix1 o)))
          (fun o => x6 (ix1 o)) (fun o => x7 (ix1 o)) q := by
  unfold out0_8
  rw [Value.canon8_eq]
  simp only [View.ld_unit_zero (S := S2000x512) hz2, View.ld_unit_zero (S := S2000x24) hz2,
    View.ld_unit_zero (S := S2000x1) hz2, View.ld_unit_zero (S := S512x512) hz2, View.ld_unit_zero (S := S24x512) hz2,
    View.ld_unit_zero (S := S512) hz1]
  have e0 : Value.ix8_0 (ix2 p q) = ix2 p q := funext fun a => by match a with | ⟨0, _⟩ => rfl | ⟨1, _⟩ => rfl
  have e1 : Value.ix8_1 (ix2 p q) = ix1 q := funext fun a => by match a with | ⟨0, _⟩ => rfl
  show max (k0_pay2 (F := Ideal) x0 x1 x2 x3 x4 x5 x6 (Value.ix8_0 (ix2 p q)) + x7 (Value.ix8_1 (ix2 p q)))
      (Ideal.ofBits .f32 0x00000000#32) = _
  rw [e0, e1, pay2_apply x0 x1 x2 x3 x4 x5 x6 p q _ rfl]
  rfl

end Cert.KernelIdeal.BlockValue

end
-- ==== Proof.KernelHost.lean ====
/-
  The arrays prepared before the launch, and where each window's block sits.

  Over the 50 grid points the three row-tiled inputs and the output are at row block `t`; the weights, bias, scale and
  shift are single whole blocks (`idx_facts`). The aggregated edge features are the scatter-add of the edge features
  into a zero array (`agg`, kept closed). The two weight blocks are column groups of `W` transposed: entry `(d, o)` of the
  first is `W o d`, entry `(e, o)` of the second is `W o (512 + e)` (`wh_apply`, `we_apply`).
-/
import proofs.«156820_j32753420599856_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.BlockValue

open Cert.KernelIdeal Cert.KernelIdeal.Gen Idealize.ShloMosaic Idealize.ShloMosaic.TcCoe
open Idealize.SL.Sem Idealize.ShloMosaic.ValueIdx Idealize.ShloMosaic.StableHlo
open Idealize.ShloMosaic.Pipeline (Dat)

open scoped BigOperators

variable (m : (ℓ : Loc nD τ sig) → Buf (Elt Ideal) ℓ) (ρ : Dev nD → PrngReg)

/-! ## Where each window's block sits -/

/-- The printed index maps over the 50 grid points: the three row-tiled inputs and the output are at row block `t`,
    the weights, bias, scale and shift are whole and stay at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0 ∧ win0_6.index t (0 : Fin 1) = 0 ∧ win0_7.index t (0 : Fin 1) = 0
    ∧ win0_8.index t (0 : Fin 2) = t.val ∧ win0_8.index t (1 : Fin 2) = 0 :=
  (by decide +kernel : ∀ t : Fin grid0.N, _)

/-! ## The arrays the host prepares before the launch -/

/-- The aggregated edge features: the scatter-add, into a zero array, of the edge features at their destination rows. -/
def agg (c : Dev nD) : FVec Ideal S100000x24 .f32 :=
  Host.scatterAdd (F := Ideal) scatter_S100000x24_S3200000x1_S3200000x24_1_0_0_1
    (broadcastInDim S100000x24 ![] bcast_S_S100000x24 (constant (F := Ideal) S_ .f32 0x00000000#32))
    (broadcastInDim S3200000x1 ![0] bcast_S3200000_S3200000x1_0 (m ((c : Thread nD τ).loc main_arg2)))
    (m ((c : Thread nD τ).loc main_arg1))

theorem V_agg (c : Dev nD) : (V m c main_v2 : S100000x24.Idx → EReal) = agg m c := by
  dsimp only [Gen.V, Gen.hostOps0]
  after_results
  rfl

/-- The node-feature weights as the kernel receives them: the first 512 columns of `W`, transposed. -/
theorem V_wh (c : Dev nD) :
    (V m c main_v5 : S512x512.Idx → EReal)
      = (truncf (F := Ideal) .bf16 (transpose S512x512 [1, 0]
            (extractStridedSlice S512x512 ![0, 0] ((m ((c : Thread nD τ).loc main_arg4)) : FVec Ideal S512x536 .f32) slices_S512x536_S512x512_0_0)
          transposes_S512x512_S512x512_1_0) bitsLt_bf16_f32 : S512x512.Idx → EReal) := by
  dsimp only [Gen.V, Gen.hostOps0]
  after_results

/-- The edge-feature weights as the kernel receives them: the last 24 columns of `W`, transposed. -/
theorem V_we (c : Dev nD) :
    (V m c main_v8 : S24x512.Idx → EReal)
      = (truncf (F := Ideal) .bf16 (transpose S24x512 [1, 0]
            (extractStridedSlice S512x24 ![0, 512] ((m ((c : Thread nD τ).loc main_arg4)) : FVec Ideal S512x536 .f32) slices_S512x536_S512x24_0_512)
          transposes_S512x24_S24x512_1_0) bitsLt_bf16_f32 : S24x512.Idx → EReal) := by
  dsimp only [Gen.V, Gen.hostOps0]
  after_results

/-- Entry `(d, o)` of the transposed node-feature weights is `W o d`. -/
theorem wh_apply (c : Dev nD) (d o : Fin 512) :
    (V m c main_v5 : S512x512.Idx → EReal) (ix2 d o) = (m ((c : Thread nD τ).loc main_arg4)) (ix2 o (⟨d.val, by omega⟩ : Fin 536)) := by
  rw [V_wh]
  show transpose S512x512 [1, 0]
      (extractStridedSlice S512x512 ![0, 0] ((m ((c : Thread nD τ).loc main_arg4)) : FVec Ideal S512x536 .f32) slices_S512x536_S512x512_0_0)
      transposes_S512x512_S512x512_1_0 (ix2 d o) = _
  refine (transpose_ix2_apply _ _ d o).trans ?_
  exact extractStridedSlice_apply _ _ _ (ix2 o d) (ix2 o (⟨d.val, by omega⟩ : Fin 536)) fun a => by
    match a with
    | ⟨0, _⟩ => show o.val = 0 + o.val; omega
    | ⟨1, _⟩ => show d.val = 0 + d.val; omega

/-- Entry `(e, o)` of the transposed edge-feature weights is `W o (512 + e)`. -/
theorem we_apply (c : Dev nD) (e : Fin 24) (o : Fin 512) :
    (V m c main_v8 : S24x512.Idx → EReal) (ix2 e o) = (m ((c : Thread nD τ).loc main_arg4)) (ix2 o (⟨512 + e.val, by omega⟩ : Fin 536)) := by
  rw [V_we]
  show transpose S24x512 [1, 0]
      (extractStridedSlice S512x24 ![0, 512] ((m ((c : Thread nD τ).loc main_arg4)) : FVec Ideal S512x536 .f32) slices_S512x536_S512x24_0_512)
      transposes_S512x24_S24x512_1_0 (ix2 e o) = _
  refine (transpose_ix2_apply _ _ e o).trans ?_
  exact extractStridedSlice_apply _ _ _ (ix2 o e) (ix2 o (⟨512 + e.val, by omega⟩ : Fin 536)) fun a => by
    match a with
    | ⟨0, _⟩ => show o.val = 0 + o.val; omega
    | ⟨1, _⟩ => show 512 + e.val = 512 + e.val; rfl

end Cert.KernelIdeal.BlockValue

end
-- ==== Proof.KernelReads.lean ====
/-
  Each input window's block at grid point `t`, read off its whole array: row `p` of a row-tiled block is row
  `2000 t + p` of the array (a block's coordinate is block index × block size + the coordinate inside the block); the
  whole blocks are read in place. For an array computed before the launch the read is first stated for an arbitrary
  array, so that the computation behind it is never opened.
-/
import proofs.«156820_j32753420599856_2_alg».proof.Proof.KernelHost
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.BlockValue

open Cert.KernelIdeal Cert.KernelIdeal.Gen Idealize.ShloMosaic Idealize.ShloMosaic.TcCoe
open Idealize.SL.Sem Idealize.ShloMosaic.ValueIdx Idealize.ShloMosaic.StableHlo
open Idealize.ShloMosaic.Pipeline (Dat)

open scoped BigOperators

variable (m : (ℓ : Loc nD τ sig) → Buf (Elt Ideal) ℓ) (ρ : Dev nD → PrngReg)
/-! ## Each input window's block at a point, read off the whole arrays -/

theorem blk0_apply (c : Dev nD) (t : Fin cfg0.N) (p : Fin 2000) (d : Fin 512) (n : Fin 100000) (hn : n.val = 2000 * t.val + p.val) :
    (iblk m c 0 t : Vec Ideal S2000x512 .f32) (ix2 p d) = (m ((c : Thread nD τ).loc main_arg0)) (ix2 n d) := by
  obtain ⟨e0, e1, -⟩ := idx_facts t
  show V m c main_arg0 (((cfg0.win 0).blk t).view.emb (ix2 p d)) = _
  rw [V_main_arg0]
  refine congrArg (m ((c : Thread nD τ).loc main_arg0)) (funext fun a => Fin.ext ?_)
  match a with
  | ⟨0, _⟩ => show win0_0.index t (0 : Fin 2) * 2000 + 1 * p.val = n.val; omega
  | ⟨1, _⟩ => show win0_0.index t (1 : Fin 2) * 512 + 1 * d.val = d.val; omega

/-- A row-tiled block of any 100000 × 24 array at point `t`: row `p` of the block is row `2000 t + p` of the array. -/
theorem read1 (c : Dev nD) (t : Fin cfg0.N) (A : Buf (Elt Ideal) ((c : Thread nD τ).loc main_v2)) (p : Fin 2000) (e : Fin 24)
    (n : Fin 100000) (hn : n.val = 2000 * t.val + p.val) :
    (((cfg0.win 1).blk t).view.read (Elt Ideal) A : Vec Ideal S2000x24 .f32) (ix2 p e) = (A : Vec Ideal S100000x24 .f32) (ix2 n e) := by
  obtain ⟨-, -, e0, e1, -⟩ := idx_facts t
  show A (((cfg0.win 1).blk t).view.emb (ix2 p e)) = _
  refine congrArg A (funext fun a => Fin.ext ?_)
  match a with
  | ⟨0, _⟩ => show win0_1.index t (0 : Fin 2) * 2000 + 1 * p.val = n.val; omega
  | ⟨1, _⟩ => show win0_1.index t (1 : Fin 2) * 24 + 1 * e.val = e.val; omega

theorem blk1_apply (c : Dev nD) (t : Fin cfg0.N) (p : Fin 2000) (e : Fin 24) (n : Fin 100000) (hn : n.val = 2000 * t.val + p.val) :
    (iblk m c 1 t : Vec Ideal S2000x24 .f32) (ix2 p e) = agg m c (ix2 n e) := by
  unfold iblk
  refine (read1 c t (V m c main_v2) p e n hn).trans ?_
  rw [V_agg]

theorem blk2_apply (c : Dev nD) (t : Fin cfg0.N) (p : Fin 2000) (n : Fin 100000) (hn : n.val = 2000 * t.val + p.val) :
    (iblk m c 2 t : Vec Ideal S2000x1 .f32) (ix2 p (0 : Fin 1)) = (m ((c : Thread nD τ).loc main_arg3)) (ix2 n (0 : Fin 1)) := by
  obtain ⟨-, -, -, -, e0, e1, -⟩ := idx_facts t
  show V m c main_arg3 (((cfg0.win 2).blk t).view.emb (ix2 p (0 : Fin 1))) = _
  rw [V_main_arg3]
  refine congrArg (m ((c : Thread nD τ).loc main_arg3)) (funext fun a => Fin.ext ?_)
  match a with
  | ⟨0, _⟩ => show win0_2.index t (0 : Fin 2) * 2000 + 1 * p.val = n.val; omega
  | ⟨1, _⟩ => show win0_2.index t (1 : Fin 2) * 1 + 1 * 0 = 0; omega

/-- The whole block of any 512 × 512 array, read in place. -/
theorem read3 (c : Dev nD) (t : Fin cfg0.N) (A : Buf (Elt Ideal) ((c : Thread nD τ).loc main_v5)) (d o : Fin 512) :
    (((cfg0.win 3).blk t).view.read (Elt Ideal) A : Vec Ideal S512x512 .bf16) (ix2 d o) = (A : Vec Ideal S512x512 .bf16) (ix2 d o) := by
  obtain ⟨-, -, -, -, -, -, e0, e1, -⟩ := idx_facts t
  show A (((cfg0.win 3).blk t).view.emb (ix2 d o)) = _
  refine congrArg A (funext fun a => Fin.ext ?_)
  match a with
  | ⟨0, _⟩ => show win0_3.index t (0 : Fin 2) * 512 + 1 * d.val = d.val; omega
  | ⟨1, _⟩ => show win0_3.index t (1 : Fin 2) * 512 + 1 * o.val = o.val; omega

theorem blk3_apply (c : Dev nD) (t : Fin cfg0.N) (d o : Fin 512) :
    (iblk m c 3 t : Vec Ideal S512x512 .bf16) (ix2 d o) = (m ((c : Thread nD τ).loc main_arg4)) (ix2 o (⟨d.val, by omega⟩ : Fin 536)) := by
  unfold iblk
  exact (read3 c t (V m c main_v5) d o).trans (wh_apply m c d o)

/-- The whole block of any 24 × 512 array, read in place. -/
theorem read4 (c : Dev nD) (t : Fin cfg0.N) (A : Buf (Elt Ideal) ((c : Thread nD τ).loc main_v8)) (e : Fin 24) (o : Fin 512) :
    (((cfg0.win 4).blk t).view.read (Elt Ideal) A : Vec Ideal S24x512 .bf16) (ix2 e o) = (A : Vec Ideal S24x512 .bf16) (ix2 e o) := by
  obtain ⟨-, -, -, -, -, -, -, -, e0, e1, -⟩ := idx_facts t
  show A (((cfg0.win 4).blk t).view.emb (ix2 e o)) = _
  refine congrArg A (funext fun a => Fin.ext ?_)
  match a with
  | ⟨0, _⟩ => show win0_4.index t (0 : Fin 2) * 24 + 1 * e.val = e.val; omega
  | ⟨1, _⟩ => show win0_4.index t (1 : Fin 2) * 512 + 1 * o.val = o.val; omega

theorem blk4_apply (c : Dev nD) (t : Fin cfg0.N) (e : Fin 24) (o : Fin 512) :
    (iblk m c 4 t : Vec Ideal S24x512 .bf16) (ix2 e o) = (m ((c : Thread nD τ).loc main_arg4)) (ix2 o (⟨512 + e.val, by omega⟩ : Fin 536)) := by
  unfold iblk
  exact (read4 c t (V m c main_v8) e o).trans (we_apply m c e o)

theorem blk5_apply (c : Dev nD) (t : Fin cfg0.N) (o : Fin 512) :
    (iblk m c 5 t : Vec Ideal S512 .f32) (ix1 o) = (m ((c : Thread nD τ).loc main_arg5)) (ix1 o) := by
  obtain ⟨-, -, -, -, -, -, -, -, -, -, e0, -⟩ := idx_facts t
  show V m c main_arg5 (((cfg0.win 5).blk t).view.emb (ix1 o)) = _
  rw [V_main_arg5]
  refine congrArg (m ((c : Thread nD τ).loc main_arg5)) (funext fun a => Fin.ext ?_)
  match a with
  | ⟨0, _⟩ => show win0_5.index t (0 : Fin 1) * 512 + 1 * o.val = o.val; omega

theorem blk6_apply (c : Dev nD) (t : Fin cfg0.N) (o : Fin 512) :
    (iblk m c 6 t : Vec Ideal S512 .f32) (ix1 o) = (m ((c : Thread nD τ).loc main_arg6)) (ix1 o) := by
  obtain ⟨-, -, -, -, -, -, -, -, -, -, -, e0, -⟩ := idx_facts t
  show V m c main_arg6 (((cfg0.win 6).blk t).view.emb (ix1 o)) = _
  rw [V_main_arg6]
  refine congrArg (m ((c : Thread nD τ).loc main_arg6)) (funext fun a => Fin.ext ?_)
  match a with
  | ⟨0, _⟩ => show win0_6.index t (0 : Fin 1) * 512 + 1 * o.val = o.val; omega

theorem blk7_apply (c : Dev nD) (t : Fin cfg0.N) (o : Fin 512) :
    (iblk m c 7 t : Vec Ideal S512 .f32) (ix1 o) = (m ((c : Thread nD τ).loc main_arg7)) (ix1 o) := by
  obtain ⟨-, -, -, -, -, -, -, -, -, -, -, -, e0, -⟩ := idx_facts t
  show V m c main_arg7 (((cfg0.win 7).blk t).view.emb (ix1 o)) = _
  rw [V_main_arg7]
  refine congrArg (m ((c : Thread nD τ).loc main_arg7)) (funext fun a => Fin.ext ?_)
  match a with
  | ⟨0, _⟩ => show win0_7.index t (0 : Fin 1) * 512 + 1 * o.val = o.val; omega

end Cert.KernelIdeal.BlockValue

end
-- ==== Proof.KernelBlocks.lean ====
/-
  From blocks to the whole result.

  A row of the output depends on the same row of the node features, aggregated edge features and norms, and on the
  whole weights, bias, scale and shift; so what grid point `t` writes back is rows `2000 t … 2000 t + 1999` of the common
  function of the whole arrays (`flushed_eq`). Row `r` lies in the block of point `r / 2000`, so the 50 blocks cover the
  100000 rows (`cover`), and the array after the run is that function everywhere (`final`, `run`).
-/
import proofs.«156820_j32753420599856_2_alg».proof.Proof.Gen.KernelIdeal.Value
import proofs.«156820_j32753420599856_2_alg».proof.Proof.KernelOut
import proofs.«156820_j32753420599856_2_alg».proof.Proof.KernelReads
import proofs.«156820_j32753420599856_2_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.BlockValue

open Cert.KernelIdeal Cert.KernelIdeal.Gen Idealize.ShloMosaic Idealize.ShloMosaic.TcCoe
open Idealize.SL.Sem Idealize.ShloMosaic.ValueIdx Idealize.ShloMosaic.StableHlo
open Idealize.ShloMosaic.Pipeline (Dat)
open Cert.GcnNorm
open scoped BigOperators

variable (m : (ℓ : Loc nD τ sig) → Buf (Elt Ideal) ℓ) (ρ : Dev nD → PrngReg)
/-! ## From blocks to the array -/

/-- The result array: the specification of the argument arrays, the aggregated edge features being `agg`. -/
abbrev res (c : Dev nD) : Buf (Elt Ideal) ((c : Thread nD τ).loc main_v9) :=
  result (m ((c : Thread nD τ).loc main_arg0)) (agg m c) (m ((c : Thread nD τ).loc main_arg3)) (m ((c : Thread nD τ).loc main_arg4)) (m ((c : Thread nD τ).loc main_arg5)) (m ((c : Thread nD τ).loc main_arg6)) (m ((c : Thread nD τ).loc main_arg7))

/-- What point `t` writes back is rows `2000 t … 2000 t + 1999` of the result: a row of the output depends on the same
    row of the three row-tiled inputs and on the whole weights, bias, scale and shift. -/
theorem flushed_eq (c : Dev nD) (t : Fin cfg0.N) :
    (dats m 0 c).flushed 8 t = ((cfg0.win 8).blk t).view.read (Elt Ideal) (res m c) := by
  rw [Value.flushed8]
  refine funext fun (y : S2000x512.Idx) => ?_
  obtain ⟨p, q, rfl⟩ : ∃ (p : Fin 2000) (q : Fin 512), y = ix2 p q := ⟨y 0, y 1, eq_ix2 y⟩
  obtain ⟨-, -, -, -, -, -, -, -, -, -, -, -, -, e8a, e8b⟩ := idx_facts t
  have ht : t.val < 50 := lt_of_lt_of_eq t.isLt N_0
  obtain ⟨n, hn⟩ : ∃ n : Fin 100000, n.val = 2000 * t.val + p.val := ⟨⟨2000 * t.val + p.val, by omega⟩, rfl⟩
  have hemb : ((cfg0.win 8).blk t).view.emb (ix2 p q) = ix2 n q := funext fun a => Fin.ext (by
    match a with
    | ⟨0, _⟩ => show win0_8.index t (0 : Fin 2) * 2000 + 1 * p.val = n.val; omega
    | ⟨1, _⟩ => show win0_8.index t (1 : Fin 2) * 512 + 1 * q.val = q.val; omega)
  show out0_8 (iblk m c 0 t) (iblk m c 1 t) (iblk m c 2 t) (iblk m c 3 t) (iblk m c 4 t) (iblk m c 5 t) (iblk m c 6 t)
      (iblk m c 7 t) (ix2 p q) = res m c (((cfg0.win 8).blk t).view.emb (ix2 p q))
  rw [hemb, out_apply]
  show _ = entry (m ((c : Thread nD τ).loc main_arg0)) (agg m c) (m ((c : Thread nD τ).loc main_arg3)) (m ((c : Thread nD τ).loc main_arg4)) (m ((c : Thread nD τ).loc main_arg5)) (m ((c : Thread nD τ).loc main_arg6)) (m ((c : Thread nD τ).loc main_arg7)) n q
  unfold entry
  have h0 : (fun d : Fin 512 => (iblk m c 0 t : Vec Ideal S2000x512 .f32) (ix2 p d)) = fun d => (m ((c : Thread nD τ).loc main_arg0)) (ix2 n d) :=
    funext fun d => blk0_apply m c t p d n hn
  have h1 : (fun e : Fin 24 => (iblk m c 1 t : Vec Ideal S2000x24 .f32) (ix2 p e)) = fun e => agg m c (ix2 n e) :=
    funext fun e => blk1_apply m c t p e n hn
  have h2 : (iblk m c 2 t : Vec Ideal S2000x1 .f32) (ix2 p (0 : Fin 1)) = (m ((c : Thread nD τ).loc main_arg3)) (ix2 n (0 : Fin 1)) :=
    blk2_apply m c t p n hn
  have h3 : (fun (d : Fin 512) (o : Fin 512) => (iblk m c 3 t : Vec Ideal S512x512 .bf16) (ix2 d o))
      = fun d o => (m ((c : Thread nD τ).loc main_arg4)) (ix2 o (⟨d.val, by omega⟩ : Fin 536)) :=
    funext fun d => funext fun o => blk3_apply m c t d o
  have h4 : (fun (e : Fin 24) (o : Fin 512) => (iblk m c 4 t : Vec Ideal S24x512 .bf16) (ix2 e o))
      = fun e o => (m ((c : Thread nD τ).loc main_arg4)) (ix2 o (⟨512 + e.val, by omega⟩ : Fin 536)) :=
    funext fun e => funext fun o => blk4_apply m c t e o
  have h5 : (fun o : Fin 512 => (iblk m c 5 t : Vec Ideal S512 .f32) (ix1 o)) = fun o => (m ((c : Thread nD τ).loc main_arg5)) (ix1 o) :=
    funext fun o => blk5_apply m c t o
  have h6 : (fun o : Fin 512 => (iblk m c 6 t : Vec Ideal S512 .f32) (ix1 o)) = fun o => (m ((c : Thread nD τ).loc main_arg6)) (ix1 o) :=
    funext fun o => blk6_apply m c t o
  have h7 : (fun o : Fin 512 => (iblk m c 7 t : Vec Ideal S512 .f32) (ix1 o)) = fun o => (m ((c : Thread nD τ).loc main_arg7)) (ix1 o) :=
    funext fun o => blk7_apply m c t o
  rw [h0, h1, h2, h3, h4, h5, h6, h7]

/-- An index of the result array is in point `t`'s block iff each coordinate is in the block's range on its axis. -/
theorem mem_blk (t : Fin cfg0.N) (i : S100000x512.Idx) :
    i ∈ ((cfg0.win 8).blk t).view.set
      ↔ ∀ a : Fin 2, win0_8.index t a * S2000x512.size a ≤ (i a).val ∧ (i a).val < win0_8.index t a * S2000x512.size a + S2000x512.size a := by
  show i ∈ ((View.whole main_v9).slice (win0_8.rect t)).set ↔ _
  rw [View.set_slice_whole, Rect.mem_set_unit]
  exact Iff.rfl

/-- Row `r` of the result lies in the block of point `r / 2000`: the 50 blocks of 2000 rows tile the 100000 rows. -/
theorem cover (i : S100000x512.Idx) :
    ∃ t : Fin cfg0.N, (cfg0.win 8).flush t = true ∧ i ∈ ((cfg0.win 8).blk t).view.set := by
  have hi0 : (i 0).val < 100000 := (i 0).isLt
  have hi1 : (i 1).val < 512 := (i 1).isLt
  have hN : cfg0.N = 50 := N_0
  obtain ⟨t, ht⟩ : ∃ t : Fin cfg0.N, t.val = (i 0).val / 2000 := ⟨⟨(i 0).val / 2000, by omega⟩, rfl⟩
  obtain ⟨-, -, -, -, -, -, -, -, -, -, -, -, -, e8a, e8b⟩ := idx_facts t
  refine ⟨t, flush0_8 t, ?_⟩
  rw [mem_blk]
  intro a
  match a with
  | ⟨0, _⟩ =>
    show win0_8.index t (0 : Fin 2) * 2000 ≤ (i 0).val ∧ (i 0).val < win0_8.index t (0 : Fin 2) * 2000 + 2000
    omega
  | ⟨1, _⟩ =>
    show win0_8.index t (1 : Fin 2) * 512 ≤ (i 1).val ∧ (i 1).val < win0_8.index t (1 : Fin 2) * 512 + 512
    omega

/-- The result array after the run is the specification of the argument arrays. -/
theorem final (c : Dev nD) : (dats m 0 c).arrAt 8 cfg0.N = res m c :=
  (dats m 0 c).arrAt_eq_of_cover 8 (res m c) (fun t _ => flushed_eq m c t) cover

/-- The kernel's run with the result array named. -/
theorem run : θ_run defs (onTc (τ := τ) (main (F := Ideal))) ⟨m, fun _ => 0, ρ⟩ fun r => ∀ c : Dev nD,
      r.2.mem ((c : Thread nD τ).loc main_v9) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.BlockValue

end
-- ==== Proof.lean ====
/-
  Both programs compute, for each of 100000 graph nodes, a linear map of the node's 512 features and of its 24
  aggregated edge features (the scatter-add of the edge features at their destination nodes, each row scaled by the
  node's norm), plus a bias; normalise each resulting row of 512 entries (mean, mean squared deviation, reciprocal
  square root, scale and shift); and clamp below at zero.

  One program concatenates the two feature groups and contracts all 536 features in one sum; the other contracts the
  first 512 and the last 24 separately, against the two transposed column groups of the weights, and adds the two sums,
  working on 50 blocks of 2000 rows. On the extended reals the two agree because a sum over 536 indices is the sum over
  the first 512 plus the sum over the last 24 (addition there is commutative and associative; nothing needs to be
  finite), and every later step — bias, mean, deviation, variance, reciprocal square root, scale, shift, maximum with
  zero — is the same operation applied in the same order to equal values, a row at a time.

  `Proof/Spec.lean` states the common function and the sum law; `Proof/RefIsSpec.lean` shows the single-contraction
  program is that function; `Proof/KernelPay.lean` reads the blocked program's arithmetic at an entry of a block;
  `Proof/KernelOut.lean` adds the shift and the clamp; `Proof/KernelHost.lean` reads the arrays prepared before the launch
  (the aggregated edge features and the two transposed column groups of the weights); `Proof/KernelReads.lean` places each
  input block in its whole array; `Proof/KernelBlocks.lean` shows the 50 output blocks are the rows of the common function
  and tile the result. Here the two runs are set side by side.
-/
import proofs.«156820_j32753420599856_2_alg».proof.Defs
import proofs.«156820_j32753420599856_2_alg».proof.Proof.Gen.Kernel
import proofs.«156820_j32753420599856_2_alg».proof.Proof.Gen.Kernel.Frame
import proofs.«156820_j32753420599856_2_alg».proof.Proof.Gen.KernelIdeal
import proofs.«156820_j32753420599856_2_alg».proof.Proof.Gen.KernelIdeal.Frame
import proofs.«156820_j32753420599856_2_alg».proof.Proof.Gen.KernelIdeal.Value
import proofs.«156820_j32753420599856_2_alg».proof.Proof.Gen.ReferenceIdeal
import proofs.«156820_j32753420599856_2_alg».proof.Proof.Gen.ReferenceIdeal.Run
import proofs.«156820_j32753420599856_2_alg».proof.Proof.Gen.ReferenceIdeal.Read
import proofs.«156820_j32753420599856_2_alg».proof.Proof.Gen.Pre_finite_inputs
import proofs.«156820_j32753420599856_2_alg».proof.Proof.Spec
import proofs.«156820_j32753420599856_2_alg».proof.Proof.RefIsSpec
import proofs.«156820_j32753420599856_2_alg».proof.Proof.KernelBlocks
import Idealize.ShloMosaic.Adequacy
import Idealize.ShloMosaic.Init

noncomputable section

namespace Cert.Proof

open Idealize.ShloMosaic Idealize.SL.Sem

/-- The word-level program runs, faults nowhere, and leaves its arguments as they were. -/
theorem frame_k : Cert.frame_Kernel := fun m ρ _ => Cert.Kernel.Gen.frame m ρ

/-- So does the blocked program read on the extended reals. -/
theorem frame_ki : Cert.frame_KernelIdeal := fun m ρ _ => Cert.KernelIdeal.Gen.frame m ρ

/-- So does the single-contraction program: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Reading the blocked program on the extended reals rewrote none of its operations. -/
theorem preserves : Cert.preserves_Kernel_KernelIdeal := trivial

/-- Both programs aggregate the edge features by the same scatter-add into a zero array. -/
theorem agg_eq (m : (ℓ : Loc Cert.KernelIdeal.nD Cert.KernelIdeal.τ Cert.KernelIdeal.sig) → Buf (Elt Ideal) ℓ)
    (c : Dev Cert.KernelIdeal.nD) :
    Cert.ReferenceIdeal.Read.val_main_v2 (F := Ideal)
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
      = Cert.KernelIdeal.BlockValue.agg m c := rfl

/-- From memories that agree on the arguments both programs end with the common function of those arguments. -/
theorem algebraic : Cert.algebraic_KernelIdeal_ReferenceIdeal := by
  intro m ρ m' ρ' _ hagree
  refine ⟨fun c => Cert.KernelIdeal.BlockValue.res m c, Cert.KernelIdeal.BlockValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v34_eq, Cert.ReferenceIdeal.RefValue.ref_eq, a0, a1, a2, a3, a4, a5, a6, a7, agg_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
